-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 133
  | .vmem => 10
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S50000x128, .bf16⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .bf16⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S1x800000, .i32⟩
  | 73 => ⟨S800000, .i32⟩
  | 74 => ⟨S850000, .i32⟩
  | 75 => ⟨S1x800000, .i32⟩
  | 76 => ⟨S800000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x64, .f32⟩
  | 112 => ⟨S50000x64, .bf16⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x64, .bf16⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S50000x128, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v81) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x64, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its two results named.

  The program is nine segments: three stretches of host operations, the first matrix-product call, three more stretches,
  the second call, a last stretch. The buffer contents at each boundary are a fold from the launch memory (`W0` … `W9`
  of the frame certificate: a stretch applies its operations, a call replaces its output array by what its write-backs
  leave and keeps every other buffer). Every weakly fair execution terminates without fault with every buffer at the
  last boundary's contents `W9`; read at the two result buffers and at the six arguments (which no segment writes), that
  is the statement below.
-/
import proofs.«117569_j36618891166257_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the second layer's output buffer and
    the first layer's output buffer at the last boundary's contents, and the six arguments as launched. -/
theorem run : θ_run defs (onTc (τ := τ) (main (F := F))) ⟨m, fun _ => 0, ρ⟩ (fun r => ∀ c : Dev nD,
      r.2.mem ((c.tc : Thread nD τ).loc main_v99) = W9 m ρ c (Proc.devRef .tc main_v99)
      ∧ r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v99 (by decide)),
       h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.GcnSpec.lean ====
/-
  The graph convolution both programs compute, as named functions of the arrays, stated once.

  Nodes 0 … 49999; 850000 messages: the 800000 listed edges (row 0 of the edge list the sources, row 1 the targets)
  followed by one self loop per node. With deg(v) the number of messages arriving at v and dinv(v) = deg(v)^(-1/2)
  where deg(v) > 0 (else 0), message j carries the weight norm(j) = dinv(src j) · dinv(dst j). A layer takes a node
  matrix H (one row per node) to
        out(v, ·) = Σ_{j : dst j = v} H(src j, ·) · norm(j)  +  b,
  written with the host's gather (rows H(src j, ·)), its broadcasts, and its exact scatter-add into zeros. The first
  layer is followed by max(·, 0). Nothing here is opened by the proofs that use it: both programs apply these same
  functions, and only the matrix H they are applied to is computed differently.
-/
import proofs.«117569_j36618891166257_2_alg».proof.Proof.Gen.KernelIdeal

noncomputable section

namespace Cert.KernelIdeal.Gcn

open Cert.KernelIdeal Cert.KernelIdeal.Gen Idealize.ShloMosaic

variable {F : FTy → Type} [FloatOps F]

/-- The source node of every message: row 0 of the edge list, then each node once. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target node of every message: row 1 of the edge list, then each node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A vector of node numbers as a column of positions. -/
def col (v : (⟨S850000, .i32⟩ : BufTy).Contents (Elt F)) : (⟨S850000x1, .i32⟩ : BufTy).Contents (Elt F) :=
  broadcastInDim S850000x1 ![0] bcast_S850000_S850000x1_0 v

/-- A vector of node numbers as a column of row positions to gather from, a negative number counted from the end. -/
def wrapCol (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- deg(v): the number of messages arriving at node v, as a float (ones scatter-added into zeros). -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (col (dstOf e)) (broadcastInDim S850000 ![] bcast_S_S850000 (constant S_ .f32 0x3F800000#32))

/-- dinv(v) = deg(v)^(-1/2) where deg(v) > 0, and 0 elsewhere. -/
def dinv (e : (⟨S2x800000, .i32⟩ : BufTy).Contents (Elt F)) : (⟨S50000, .f32⟩ : BufTy).Contents (Elt F) :=
  select (cmpf .ogt (deg e) (broadcastInDim S50000 ![] bcast_S_S50000 (constant S_ .f32 0x00000000#32))) (Host.rsqrt (deg e))
    (broadcastInDim S50000 ![] bcast_S_S50000 (id (constant S_ .f32 0x00000000#32)))

/-- The weight of each message from a per-node factor d, its sources s and its targets t: d(s j) · d(t j). -/
def weights (d : (⟨S50000, .f32⟩ : BufTy).Contents (Elt F)) (s t : (⟨S850000, .i32⟩ : BufTy).Contents (Elt F)) :
    (⟨S850000, .f32⟩ : BufTy).Contents (Elt F) :=
  mulf (Host.gather gather_S50000_S850000x1_S850000_n_0_n_n_0_1_1 d (wrapCol s))
    (Host.gather gather_S50000_S850000x1_S850000_n_0_n_n_0_1_1 d (wrapCol t))

/-- norm(j) = dinv(src j) · dinv(dst j), one weight per message. -/
def norm (e : (⟨S2x800000, .i32⟩ : BufTy).Contents (Elt F)) : (⟨S850000, .f32⟩ : BufTy).Contents (Elt F) :=
  weights (dinv e) (srcOf e) (dstOf e)

/-- A layer on a 128-column node matrix: the weighted rows H(src j, ·) · norm(j) summed into their targets, plus the bias. -/
def agg128 (H : (⟨S50000x128, .f32⟩ : BufTy).Contents (Elt F)) (e : (⟨S2x800000, .i32⟩ : BufTy).Contents (Elt F))
    (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32))
      (col (dstOf e))
      (mulf (Host.gather gather_S50000x128_S850000x1_S850000x128_1_0_n_n_0_1_1128 H (wrapCol (srcOf e)))
        (broadcastInDim S850000x128 ![0, 1] bcast_S850000x1_S850000x128_0_1 (broadcastInDim S850000x1 ![0] bcast_S850000_S850000x1_0 (norm e)))))
    (broadcastInDim S50000x128 ![0, 1] bcast_S1x128_S50000x128_0_1 (broadcastInDim S1x128 ![1] bcast_S128_S1x128_1 b))

/-- max(·, 0), entry by entry. -/
def relu128 (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The same layer on a 64-column node matrix. -/
def agg64 (H : (⟨S50000x64, .f32⟩ : BufTy).Contents (Elt F)) (e : (⟨S2x800000, .i32⟩ : BufTy).Contents (Elt F))
    (b : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32))
      (col (dstOf e))
      (mulf (Host.gather gather_S50000x64_S850000x1_S850000x64_1_0_n_n_0_1_164 H (wrapCol (srcOf e)))
        (broadcastInDim S850000x64 ![0, 1] bcast_S850000x1_S850000x64_0_1 (broadcastInDim S850000x1 ![0] bcast_S850000_S850000x1_0 (norm e)))))
    (broadcastInDim S50000x64 ![0, 1] bcast_S1x64_S50000x64_0_1 (broadcastInDim S1x64 ![1] bcast_S64_S1x64_1 b))

end Cert.KernelIdeal.Gcn

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.FirstProduct.lean ====
/-
  The first matrix-product call leaves the whole product in its output array.

  The call runs over 10 grid points. Point t stages rows 5000·t … 5000·t + 4999 of the 50000 × 128 left matrix, the whole
  128 × 128 right matrix, and writes back rows 5000·t … 5000·t + 4999 of the 50000 × 128 output. The body's value at (p, q) of
  its block is Σ_k x(p, k) · w(k, q) over the 128 contracted coordinates (the matrix unit's product started from zeros;
  rounding the operands to a narrower float format changes nothing on the exact extended reals), which is entry
  (5000·t + p, q) of the whole product Σ_k X(·, k) · W(k, ·). The ten row blocks tile the output, row r lying in block
  r / 5000, so the array ends as the whole product.
-/
import proofs.«117569_j36618891166257_2_alg».proof.Proof.Gen.KernelIdeal.Frame
import proofs.«117569_j36618891166257_2_alg».proof.Proof.LibPlainMatmul
import proofs.«117569_j36618891166257_2_alg».proof.Proof.LibPlainDotGeneral
import Idealize.ShloMosaic.Lib.Pipeline.Value
import Idealize.ShloMosaic.Lib.ValueIdx

set_option maxRecDepth 16384

noncomputable section

namespace Cert.KernelIdeal.FirstProduct

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The whole product's dimension record: 50000 × 128 by 128 × 128, the left operand contracted on its second axis and the
    right on its first. -/
def dotAll : DotDims S50000x128 S128x128 S50000x128 := ⟨[1], [0], [0], [1], [], [], by decide⟩

/-- The whole product Σ_k X(·, k) · W(k, ·) as the host's contraction. -/
def whole (X : FVec Ideal S50000x128 .f32) (W : FVec Ideal S128x128 .f32) : FVec Ideal S50000x128 .f32 :=
  Host.dotGeneral dotAll none X W

/-- One entry of a block: if the staged left block `x0` is rows 5000·b … of `X` and the staged right block `x1` is `W`, the
    body's value at (p, q) is the whole product's entry (5000·b + p, q): both are the sum over the contracted coordinate. -/
theorem block_entry (X : FVec Ideal S50000x128 .f32) (W : FVec Ideal S128x128 .f32)
    (x0 : Vec Ideal S5000x128 .f32) (x1 : Vec Ideal S128x128 .f32) (b : ℕ) (hb : b < 10)
    (h0 : ∀ (p : Fin 5000) (k : Fin 128), x0 (ix2 p k) = X (ix2 ⟨b * 5000 + p.val, by omega⟩ k))
    (h1 : ∀ (k : Fin 128) (q : Fin 128), x1 (ix2 k q) = W (ix2 k q))
    (p : Fin 5000) (q : Fin 128) :
    k0_pay1 x0 x1 (ix2 p q) = whole X W (ix2 ⟨b * 5000 + p.val, by omega⟩ q) := by
  unfold k0_pay1 whole
  refine (matmul_plain_zero_apply dot_S5000x128_S128x128_S5000x128_1_0_0_1_n_n.wf none _ _ p q).trans ?_
  refine ((dotGeneral_plain_apply dotAll.wf none X W _ q).trans ?_).symm
  refine Finset.sum_congr rfl fun k _ => ?_
  show X _ * W _ = x0 _ * x1 _
  rw [h0, h1]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the left operand's and the output's row block is the point's
    number, every column block and the right operand's blocks are 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the call finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht : t.val < 10 := lt_of_lt_of_eq t.isLt N_0
  funext j
  obtain ⟨p, q, rfl⟩ : ∃ (p : Fin 5000) (q : Fin 128), j = ix2 p q := ⟨j 0, j 1, eq_ix2 j⟩
  have hemb : ((cfg0.win 2).blk t).view.emb (ix2 p q) = ix2 ⟨t.val * 5000 + p.val, by omega⟩ q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = whole (V c main_arg0) (V c main_arg2) (((cfg0.win 2).blk t).view.emb (ix2 p q))
  rw [hemb]
  refine block_entry (V c main_arg0) (V c main_arg2) (iblk0 V c 0 t) (iblk0 V c 1 t) t.val ht ?_ ?_ p q
  · intro p k
    show V c main_arg0 (((cfg0.win 0).blk t).view.emb (ix2 p k)) = V c main_arg0 _
    have h : ((cfg0.win 0).blk t).view.emb (ix2 p k) = ix2 ⟨t.val * 5000 + p.val, by omega⟩ k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    rw [h]
  · intro k q
    show V c main_arg2 (((cfg0.win 1).blk t).view.emb (ix2 k q)) = V c main_arg2 _
    have h : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    rw [h]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the output lies in the block of point r / 5000: the ten blocks tile the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1, e2, e3, e4, e5⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the call is the whole product of the left and right arrays as the call finds them. -/
theorem array_eq (c : Dev nD) : (dat0 V c).arrAt 2 cfg0.N = whole (V c main_arg0) (V c main_arg2) :=
  (dat0 V c).arrAt_eq_of_cover 2 (whole (V c main_arg0) (V c main_arg2)) (fun t _ => flushed_eq V c t) (cover)

end Cert.KernelIdeal.FirstProduct

end
-- ==== Proof.SecondProduct.lean ====
/-
  The second matrix-product call leaves the whole product in its output array.

  The call runs over 10 grid points. Point t stages rows 5000·t … 5000·t + 4999 of the 50000 × 128 left matrix, the whole
  128 × 64 right matrix, and writes back rows 5000·t … 5000·t + 4999 of the 50000 × 64 output. The body's value at (p, q) of
  its block is Σ_k x(p, k) · w(k, q) over the 128 contracted coordinates (the matrix unit's product started from zeros;
  rounding the operands to a narrower float format changes nothing on the exact extended reals), which is entry
  (5000·t + p, q) of the whole product Σ_k X(·, k) · W(k, ·). The ten row blocks tile the output, row r lying in block
  r / 5000, so the array ends as the whole product.
-/
import proofs.«117569_j36618891166257_2_alg».proof.Proof.Gen.KernelIdeal.Frame
import proofs.«117569_j36618891166257_2_alg».proof.Proof.LibPlainMatmul
import proofs.«117569_j36618891166257_2_alg».proof.Proof.LibPlainDotGeneral
import Idealize.ShloMosaic.Lib.Pipeline.Value
import Idealize.ShloMosaic.Lib.ValueIdx

set_option maxRecDepth 16384

noncomputable section

namespace Cert.KernelIdeal.SecondProduct

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The whole product's dimension record: 50000 × 128 by 128 × 64, the left operand contracted on its second axis and the
    right on its first. -/
def dotAll : DotDims S50000x128 S128x64 S50000x64 := ⟨[1], [0], [0], [1], [], [], by decide⟩

/-- The whole product Σ_k X(·, k) · W(k, ·) as the host's contraction. -/
def whole (X : FVec Ideal S50000x128 .f32) (W : FVec Ideal S128x64 .f32) : FVec Ideal S50000x64 .f32 :=
  Host.dotGeneral dotAll none X W

/-- One entry of a block: if the staged left block `x0` is rows 5000·b … of `X` and the staged right block `x1` is `W`, the
    body's value at (p, q) is the whole product's entry (5000·b + p, q): both are the sum over the contracted coordinate. -/
theorem block_entry (X : FVec Ideal S50000x128 .f32) (W : FVec Ideal S128x64 .f32)
    (x0 : Vec Ideal S5000x128 .f32) (x1 : Vec Ideal S128x64 .f32) (b : ℕ) (hb : b < 10)
    (h0 : ∀ (p : Fin 5000) (k : Fin 128), x0 (ix2 p k) = X (ix2 ⟨b * 5000 + p.val, by omega⟩ k))
    (h1 : ∀ (k : Fin 128) (q : Fin 64), x1 (ix2 k q) = W (ix2 k q))
    (p : Fin 5000) (q : Fin 64) :
    k1_pay1 x0 x1 (ix2 p q) = whole X W (ix2 ⟨b * 5000 + p.val, by omega⟩ q) := by
  unfold k1_pay1 whole
  rw [shapeCast_self]
  refine (matmul_plain_zero_apply dot_S5000x128_S128x64_S5000x64_1_0_0_1_n_n.wf none _ _ p q).trans ?_
  refine ((dotGeneral_plain_apply dotAll.wf none X W _ q).trans ?_).symm
  refine Finset.sum_congr rfl fun k _ => ?_
  show X _ * W _ = x0 _ * x1 _
  rw [h0, h1]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the left operand's and the output's row block is the point's
    number, every column block and the right operand's blocks are 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays as the call finds them. -/
theorem flushed_eq (c : Dev nD) (t : Fin cfg1.N) :
    (dat1 V c).flushed 2 t = ((cfg1.win 2).blk t).view.read (Elt Ideal) (whole (V c main_v50) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  have ht : t.val < 10 := lt_of_lt_of_eq t.isLt N_1
  funext j
  obtain ⟨p, q, rfl⟩ : ∃ (p : Fin 5000) (q : Fin 64), j = ix2 p q := ⟨j 0, j 1, eq_ix2 j⟩
  have hemb : ((cfg1.win 2).blk t).view.emb (ix2 p q) = ix2 ⟨t.val * 5000 + p.val, by omega⟩ q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  show k1_pay1 (iblk1 V c 0 t) (iblk1 V c 1 t) (ix2 p q) = whole (V c main_v50) (V c main_arg4) (((cfg1.win 2).blk t).view.emb (ix2 p q))
  rw [hemb]
  refine block_entry (V c main_v50) (V c main_arg4) (iblk1 V c 0 t) (iblk1 V c 1 t) t.val ht ?_ ?_ p q
  · intro p k
    show V c main_v50 (((cfg1.win 0).blk t).view.emb (ix2 p k)) = V c main_v50 _
    have h : ((cfg1.win 0).blk t).view.emb (ix2 p k) = ix2 ⟨t.val * 5000 + p.val, by omega⟩ k := by
      funext a; apply Fin.ext
      match a with
      | ⟨0, _⟩ => show win1_0.index t (0 : Fin 2) * 5000 + 1 * p.val = t.val * 5000 + p.val; omega
      | ⟨1, _⟩ => show win1_0.index t (1 : Fin 2) * 128 + 1 * k.val = k.val; omega
    rw [h]
  · intro k q
    show V c main_arg4 (((cfg1.win 1).blk t).view.emb (ix2 k q)) = V c main_arg4 _
    have h : ((cfg1.win 1).blk t).view.emb (ix2 k q) = ix2 k q := by
      funext a; apply Fin.ext
      match a with
      | ⟨0, _⟩ => show win1_1.index t (0 : Fin 2) * 128 + 1 * k.val = k.val; omega
      | ⟨1, _⟩ => show win1_1.index t (1 : Fin 2) * 64 + 1 * q.val = q.val; omega
    rw [h]

/-- An index of the output array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v81).slice (win1_2.rect t)).set ↔ _
  rw [View.set_slice_whole, Rect.mem_set_unit]
  exact Iff.rfl

/-- Row r of the output lies in the block of point r / 5000: the ten blocks tile the array. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨e0, e1, e2, e3, e4, e5⟩ := idx_facts t
  have htv : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the call is the whole product of the left and right arrays as the call finds them. -/
theorem array_eq (c : Dev nD) : (dat1 V c).arrAt 2 cfg1.N = whole (V c main_v50) (V c main_arg4) :=
  (dat1 V c).arrAt_eq_of_cover 2 (whole (V c main_v50) (V c main_arg4)) (fun t _ => flushed_eq V c t) (cover)

end Cert.KernelIdeal.SecondProduct

end
-- ==== Proof.GcnLayers.lean ====
/-
  The two results as functions of the six arguments.

  first  = max(layer₁(X · W1), 0)        with layer₁ the aggregation on 128-column node matrices and bias b1,
  second = layer₂(first · W2)            with layer₂ the aggregation on 64-column node matrices and bias b2,
  the matrix products being the whole products (one contraction over the 128 shared coordinates).
-/
import proofs.«117569_j36618891166257_2_alg».proof.Proof.GcnSpec
import proofs.«117569_j36618891166257_2_alg».proof.Proof.FirstProduct
import proofs.«117569_j36618891166257_2_alg».proof.Proof.SecondProduct

noncomputable section

namespace Cert.KernelIdeal.Gcn

open Cert.KernelIdeal Cert.KernelIdeal.Gen Idealize.ShloMosaic

/-- The first layer's output: max(·, 0) of the aggregation of X · W1, plus b1. -/
def first (x : (⟨S50000x128, .f32⟩ : BufTy).Contents (Elt Ideal)) (e : (⟨S2x800000, .i32⟩ : BufTy).Contents (Elt Ideal))
    (w1 : (⟨S128x128, .f32⟩ : BufTy).Contents (Elt Ideal)) (b1 : (⟨S128, .f32⟩ : BufTy).Contents (Elt Ideal)) :
    (⟨S50000x128, .f32⟩ : BufTy).Contents (Elt Ideal) :=
  relu128 (agg128 (Cert.KernelIdeal.FirstProduct.whole x w1) e b1)

/-- The second layer's output: the aggregation of h · W2, plus b2, for a first-layer output h. -/
def second (h : (⟨S50000x128, .f32⟩ : BufTy).Contents (Elt Ideal)) (e : (⟨S2x800000, .i32⟩ : BufTy).Contents (Elt Ideal))
    (w2 : (⟨S128x64, .f32⟩ : BufTy).Contents (Elt Ideal)) (b2 : (⟨S64, .f32⟩ : BufTy).Contents (Elt Ideal)) :
    (⟨S50000x64, .f32⟩ : BufTy).Contents (Elt Ideal) :=
  agg64 (Cert.KernelIdeal.SecondProduct.whole h w2) e b2

end Cert.KernelIdeal.Gcn

end
-- ==== Proof.HostStages.lean ====
/-
  The message sources, targets and weights as the host stretches build them, for any contents the stretches start from.

  The program builds these three vectors twice, each time in three consecutive stretches of host operations: the first
  forms the sources and targets (a row of the edge list followed by the node numbers), the degree, where it is positive
  and its inverse square root; the second selects the inverse square root where the degree is positive and zero
  elsewhere; the third gathers that vector at the sources and at the targets and multiplies. Every statement is about
  the buffer contents after a stretch as a function of the contents `U` before it; the only argument read is the edge list.
-/
import proofs.«117569_j36618891166257_2_alg».proof.Proof.Gen.KernelIdeal.Launch
import proofs.«117569_j36618891166257_2_alg».proof.Proof.GcnSpec
import Idealize.ShloMosaic.PureOps.Ideal
import Idealize.ShloMosaic.Lib.StableHlo.Run

set_option maxRecDepth 16384

noncomputable section

namespace Cert.KernelIdeal.Stages

open Cert.KernelIdeal Cert.KernelIdeal.Gen Cert.KernelIdeal.Gcn
open Idealize.ShloMosaic Idealize.ShloMosaic.TcCoe Idealize.SL.Sem Idealize.ShloMosaic.StableHlo

/-! ## Before the first call -/

section
variable (U : Valuation τ sig (Elt Ideal))

/-- The message sources, from the edge list as the stretch finds it. -/
theorem a_src : StableHlo.after hostOps0 U (Proc.devRef .tc main_v3) = srcOf (U (Proc.devRef .tc main_arg1)) := by
  after_results_simp
  rfl

/-- The message targets. -/
theorem a_dst : StableHlo.after hostOps0 U (Proc.devRef .tc main_v6) = dstOf (U (Proc.devRef .tc main_arg1)) := by
  after_results_simp
  rfl

/-- Where the degree is positive. -/
theorem a_pos : StableHlo.after hostOps0 U (Proc.devRef .tc main_v12)
    = cmpf .ogt (deg (U (Proc.devRef .tc main_arg1))) (broadcastInDim S50000 ![] bcast_S_S50000 (constant (F := Ideal) S_ .f32 0x00000000#32)) := by
  after_results_simp
  rfl

/-- The degree's inverse square root. -/
theorem a_rsqrt : StableHlo.after hostOps0 U (Proc.devRef .tc main_v13) = Host.rsqrt (deg (U (Proc.devRef .tc main_arg1))) := by
  after_results_simp
  rfl

/-- The zero used where the degree is not positive. -/
theorem a_zero : StableHlo.after hostOps0 U (Proc.devRef .tc main_cst_2) = constant (F := Ideal) S_ .f32 0x00000000#32 := by
  after_results_simp

/-- The selection between the two, from what the selecting stretch finds. -/
theorem a_select : StableHlo.after hostOps0_1 U (Proc.devRef .tc main_v14)
    = select (U (Proc.devRef .tc main_v12)) (U (Proc.devRef .tc main_v13)) (broadcastInDim S50000 ![] bcast_S_S50000 (id (U (Proc.devRef .tc main_cst_2)))) := by
  after_results_simp
  rfl

/-- The selecting stretch keeps the sources and the targets. -/
theorem a_keep_src : StableHlo.after hostOps0_1 U (Proc.devRef .tc main_v3) = U (Proc.devRef .tc main_v3) := by
  after_results_simp
theorem a_keep_dst : StableHlo.after hostOps0_1 U (Proc.devRef .tc main_v6) = U (Proc.devRef .tc main_v6) := by
  after_results_simp

/-- The weights, from the selected vector, the sources and the targets as the last stretch finds them. -/
theorem a_mul : StableHlo.after hostOps0_2 U (Proc.devRef .tc main_v29)
    = weights (U (Proc.devRef .tc main_v14)) (U (Proc.devRef .tc main_v3)) (U (Proc.devRef .tc main_v6)) := by
  after_results_simp
  rfl

/-- The sources and the targets after all three stretches. -/
theorem a_src_all : StableHlo.after hostOps0_2 (StableHlo.after hostOps0_1 (StableHlo.after hostOps0 U)) (Proc.devRef .tc main_v3) = srcOf (U (Proc.devRef .tc main_arg1)) := by
  after_results_simp
  rfl
theorem a_dst_all : StableHlo.after hostOps0_2 (StableHlo.after hostOps0_1 (StableHlo.after hostOps0 U)) (Proc.devRef .tc main_v6) = dstOf (U (Proc.devRef .tc main_arg1)) := by
  after_results_simp
  rfl

/-- The three stretches together: the message weights of the edge list. -/
theorem a_norm : StableHlo.after hostOps0_2 (StableHlo.after hostOps0_1 (StableHlo.after hostOps0 U)) (Proc.devRef .tc main_v29) = norm (U (Proc.devRef .tc main_arg1)) := by
  rw [a_mul, a_select, a_keep_src, a_keep_dst, a_pos, a_rsqrt, a_zero, a_src, a_dst]
  rfl

end

/-! ## Between the two calls -/

section
variable (U : Valuation τ sig (Elt Ideal))

/-- The message sources, from the edge list as the stretch finds it. -/
theorem b_src : StableHlo.after hostOps1 U (Proc.devRef .tc main_v54) = srcOf (U (Proc.devRef .tc main_arg1)) := by
  after_results_simp
  rfl

/-- The message targets. -/
theorem b_dst : StableHlo.after hostOps1 U (Proc.devRef .tc main_v57) = dstOf (U (Proc.devRef .tc main_arg1)) := by
  after_results_simp
  rfl

/-- Where the degree is positive. -/
theorem b_pos : StableHlo.after hostOps1 U (Proc.devRef .tc main_v63)
    = cmpf .ogt (deg (U (Proc.devRef .tc main_arg1))) (broadcastInDim S50000 ![] bcast_S_S50000 (constant (F := Ideal) S_ .f32 0x00000000#32)) := by
  after_results_simp
  rfl

/-- The degree's inverse square root. -/
theorem b_rsqrt : StableHlo.after hostOps1 U (Proc.devRef .tc main_v64) = Host.rsqrt (deg (U (Proc.devRef .tc main_arg1))) := by
  after_results_simp
  rfl

/-- The zero used where the degree is not positive. -/
theorem b_zero : StableHlo.after hostOps1 U (Proc.devRef .tc main_cst_13) = constant (F := Ideal) S_ .f32 0x00000000#32 := by
  after_results_simp

/-- The selection between the two, from what the selecting stretch finds. -/
theorem b_select : StableHlo.after hostOps1_1 U (Proc.devRef .tc main_v65)
    = select (U (Proc.devRef .tc main_v63)) (U (Proc.devRef .tc main_v64)) (broadcastInDim S50000 ![] bcast_S_S50000 (id (U (Proc.devRef .tc main_cst_13)))) := by
  after_results_simp
  rfl

/-- The selecting stretch keeps the sources and the targets. -/
theorem b_keep_src : StableHlo.after hostOps1_1 U (Proc.devRef .tc main_v54) = U (Proc.devRef .tc main_v54) := by
  after_results_simp
theorem b_keep_dst : StableHlo.after hostOps1_1 U (Proc.devRef .tc main_v57) = U (Proc.devRef .tc main_v57) := by
  after_results_simp

/-- The weights, from the selected vector, the sources and the targets as the last stretch finds them. -/
theorem b_mul : StableHlo.after hostOps1_2 U (Proc.devRef .tc main_v80)
    = weights (U (Proc.devRef .tc main_v65)) (U (Proc.devRef .tc main_v54)) (U (Proc.devRef .tc main_v57)) := by
  after_results_simp
  rfl

/-- The sources and the targets after all three stretches. -/
theorem b_src_all : StableHlo.after hostOps1_2 (StableHlo.after hostOps1_1 (StableHlo.after hostOps1 U)) (Proc.devRef .tc main_v54) = srcOf (U (Proc.devRef .tc main_arg1)) := by
  after_results_simp
  rfl
theorem b_dst_all : StableHlo.after hostOps1_2 (StableHlo.after hostOps1_1 (StableHlo.after hostOps1 U)) (Proc.devRef .tc main_v57) = dstOf (U (Proc.devRef .tc main_arg1)) := by
  after_results_simp
  rfl

/-- The three stretches together: the message weights of the edge list. -/
theorem b_norm : StableHlo.after hostOps1_2 (StableHlo.after hostOps1_1 (StableHlo.after hostOps1 U)) (Proc.devRef .tc main_v80) = norm (U (Proc.devRef .tc main_arg1)) := by
  rw [b_mul, b_select, b_keep_src, b_keep_dst, b_pos, b_rsqrt, b_zero, b_src, b_dst]
  rfl

end

end Cert.KernelIdeal.Stages

end
-- ==== Proof.KernelChain.lean ====
/-
  The idealized kernel program's two result buffers as functions of its arguments.

  The boundary contents of the program's nine segments are a fold from the launch memory. Read one buffer at a time:
  * before the first call the host has built, from the edge list alone, the message sources, the message targets and the
    message weights; no segment ever writes an argument, so each argument reads as launched at every boundary;
  * the first call replaces its output array by the whole product X · W1 and keeps every other buffer;
  * the next stretches form the first layer's output from that product (the rows gathered after a change of float format
    and back, which changes nothing on the exact extended reals) and build the sources, targets and weights once more;
  * the second call replaces its output array by the whole product of the first layer's output with W2;
  * the last stretch forms the second layer's output.
  Each step reads a stretch's operations at one buffer and names what it finds by the specification's functions.
-/
import proofs.«117569_j36618891166257_2_alg».proof.Proof.Gen.KernelIdeal.Frame
import proofs.«117569_j36618891166257_2_alg».proof.Proof.GcnLayers
import proofs.«117569_j36618891166257_2_alg».proof.Proof.HostStages
import Idealize.ShloMosaic.PureOps.Ideal
import Idealize.ShloMosaic.Lib.StableHlo.Run

set_option maxRecDepth 16384

noncomputable section

namespace Cert.KernelIdeal.Chain

open Cert.KernelIdeal Cert.KernelIdeal.Gen Cert.KernelIdeal.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first call: everything is a function of the launch memory -/

theorem b3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
theorem b3_arg1 : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results_simp
theorem b3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp
theorem b3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp
theorem b3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp
theorem b3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

/-- The message sources. -/
theorem b3_src : W3 m ρ c (Proc.devRef .tc main_v3) = srcOf (m ((c.tc : Thread nD τ).loc main_arg1)) := by
  show StableHlo.after hostOps0_2 (StableHlo.after hostOps0_1 (StableHlo.after hostOps0 (W0 m ρ c))) (Proc.devRef .tc main_v3) = _
  after_results_simp
  rfl

/-- The message targets. -/
theorem b3_dst : W3 m ρ c (Proc.devRef .tc main_v6) = dstOf (m ((c.tc : Thread nD τ).loc main_arg1)) := by
  show StableHlo.after hostOps0_2 (StableHlo.after hostOps0_1 (StableHlo.after hostOps0 (W0 m ρ c))) (Proc.devRef .tc main_v6) = _
  after_results_simp
  rfl

/-- The message weights. -/
theorem b3_norm : W3 m ρ c (Proc.devRef .tc main_v29) = norm (m ((c.tc : Thread nD τ).loc main_arg1)) :=
  Cert.KernelIdeal.Stages.a_norm (W0 m ρ c)

/-! ## After the first call: its output array is the whole product, every other buffer is kept -/

theorem b4_arg1 : W4 m ρ c (Proc.devRef .tc main_arg1) = m ((c.tc : Thread nD τ).loc main_arg1) :=
  (W4_of_ne m ρ c main_arg1 (by decide)).trans (b3_arg1 m ρ c)
theorem b4_arg3 : W4 m ρ c (Proc.devRef .tc main_arg3) = m ((c.tc : Thread nD τ).loc main_arg3) :=
  (W4_of_ne m ρ c main_arg3 (by decide)).trans (b3_arg3 m ρ c)
theorem b4_arg4 : W4 m ρ c (Proc.devRef .tc main_arg4) = m ((c.tc : Thread nD τ).loc main_arg4) :=
  (W4_of_ne m ρ c main_arg4 (by decide)).trans (b3_arg4 m ρ c)
theorem b4_arg5 : W4 m ρ c (Proc.devRef .tc main_arg5) = m ((c.tc : Thread nD τ).loc main_arg5) :=
  (W4_of_ne m ρ c main_arg5 (by decide)).trans (b3_arg5 m ρ c)
theorem b4_src : W4 m ρ c (Proc.devRef .tc main_v3) = srcOf (m ((c.tc : Thread nD τ).loc main_arg1)) :=
  (W4_of_ne m ρ c main_v3 (by decide)).trans (b3_src m ρ c)
theorem b4_dst : W4 m ρ c (Proc.devRef .tc main_v6) = dstOf (m ((c.tc : Thread nD τ).loc main_arg1)) :=
  (W4_of_ne m ρ c main_v6 (by decide)).trans (b3_dst m ρ c)
theorem b4_norm : W4 m ρ c (Proc.devRef .tc main_v29) = norm (m ((c.tc : Thread nD τ).loc main_arg1)) :=
  (W4_of_ne m ρ c main_v29 (by decide)).trans (b3_norm m ρ c)

/-- The first call's output array: X · W1. -/
theorem b4_prod : W4 m ρ c (Proc.devRef .tc main_v30)
    = Cert.KernelIdeal.FirstProduct.whole (m ((c.tc : Thread nD τ).loc main_arg0)) (m ((c.tc : Thread nD τ).loc main_arg2)) :=
  (W4_arr m ρ c 2).trans ((Cert.KernelIdeal.FirstProduct.array_eq (V3 m ρ) c).trans (by
    rw [show V3 m ρ c main_arg0 = m ((c.tc : Thread nD τ).loc main_arg0) from b3_arg0 m ρ c,
      show V3 m ρ c main_arg2 = m ((c.tc : Thread nD τ).loc main_arg2) from b3_arg2 m ρ c]))

/-! ## Before the second call -/

/-- The first layer's output. -/
theorem b7_first : W7 m ρ c (Proc.devRef .tc main_v50) = first (m ((c.tc : Thread nD τ).loc main_arg0)) (m ((c.tc : Thread nD τ).loc main_arg1)) (m ((c.tc : Thread nD τ).loc main_arg2)) (m ((c.tc : Thread nD τ).loc main_arg3)) := by
  show StableHlo.after hostOps1_2 (StableHlo.after hostOps1_1 (StableHlo.after hostOps1 (W4 m ρ c))) (Proc.devRef .tc main_v50) = _
  after_results_simp
  rw [b4_prod m ρ c, b4_src m ρ c, b4_dst m ρ c, b4_norm m ρ c, b4_arg3 m ρ c]
  rfl

/-- The message sources, built a second time. -/
theorem b7_src : W7 m ρ c (Proc.devRef .tc main_v54) = srcOf (m ((c.tc : Thread nD τ).loc main_arg1)) := by
  show StableHlo.after hostOps1_2 (StableHlo.after hostOps1_1 (StableHlo.after hostOps1 (W4 m ρ c))) (Proc.devRef .tc main_v54) = _
  rw [Cert.KernelIdeal.Stages.b_src_all (W4 m ρ c), b4_arg1 m ρ c]

/-- The message targets, built a second time. -/
theorem b7_dst : W7 m ρ c (Proc.devRef .tc main_v57) = dstOf (m ((c.tc : Thread nD τ).loc main_arg1)) := by
  show StableHlo.after hostOps1_2 (StableHlo.after hostOps1_1 (StableHlo.after hostOps1 (W4 m ρ c))) (Proc.devRef .tc main_v57) = _
  rw [Cert.KernelIdeal.Stages.b_dst_all (W4 m ρ c), b4_arg1 m ρ c]

/-- The message weights, built a second time. -/
theorem b7_norm : W7 m ρ c (Proc.devRef .tc main_v80) = norm (m ((c.tc : Thread nD τ).loc main_arg1)) := by
  show StableHlo.after hostOps1_2 (StableHlo.after hostOps1_1 (StableHlo.after hostOps1 (W4 m ρ c))) (Proc.devRef .tc main_v80) = _
  rw [Cert.KernelIdeal.Stages.b_norm (W4 m ρ c), b4_arg1 m ρ c]

theorem b7_arg4 : W7 m ρ c (Proc.devRef .tc main_arg4) = m ((c.tc : Thread nD τ).loc main_arg4) := by
  show StableHlo.after hostOps1_2 (StableHlo.after hostOps1_1 (StableHlo.after hostOps1 (W4 m ρ c))) (Proc.devRef .tc main_arg4) = _
  after_results_simp
  exact b4_arg4 m ρ c
theorem b7_arg5 : W7 m ρ c (Proc.devRef .tc main_arg5) = m ((c.tc : Thread nD τ).loc main_arg5) := by
  show StableHlo.after hostOps1_2 (StableHlo.after hostOps1_1 (StableHlo.after hostOps1 (W4 m ρ c))) (Proc.devRef .tc main_arg5) = _
  after_results_simp
  exact b4_arg5 m ρ c

/-! ## After the second call -/

/-- The second call's output array: the first layer's output times W2. -/
theorem b8_prod : W8 m ρ c (Proc.devRef .tc main_v81)
    = Cert.KernelIdeal.SecondProduct.whole (first (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (W8_arr m ρ c 2).trans ((Cert.KernelIdeal.SecondProduct.array_eq (V7 m ρ) c).trans (by
    rw [show V7 m ρ c main_v50 = first (m ((c.tc : Thread nD τ).loc main_arg0)) (m ((c.tc : Thread nD τ).loc main_arg1)) (m ((c.tc : Thread nD τ).loc main_arg2)) (m ((c.tc : Thread nD τ).loc main_arg3)) from b7_first m ρ c,
      show V7 m ρ c main_arg4 = m ((c.tc : Thread nD τ).loc main_arg4) from b7_arg4 m ρ c]))

/-- The first layer's output is the call's left operand, which it reads and never writes back. -/
theorem b8_first : W8 m ρ c (Proc.devRef .tc main_v50) = first (m ((c.tc : Thread nD τ).loc main_arg0)) (m ((c.tc : Thread nD τ).loc main_arg1)) (m ((c.tc : Thread nD τ).loc main_arg2)) (m ((c.tc : Thread nD τ).loc main_arg3)) :=
  (W8_arr m ρ c 0).trans (((dat1 (V7 m ρ) c).arrAt_in 0 rfl _).trans ((A_eq1 (V7 m ρ) c 0).trans (b7_first m ρ c)))

theorem b8_src : W8 m ρ c (Proc.devRef .tc main_v54) = srcOf (m ((c.tc : Thread nD τ).loc main_arg1)) :=
  (W8_of_ne m ρ c main_v54 (by decide)).trans (b7_src m ρ c)
theorem b8_dst : W8 m ρ c (Proc.devRef .tc main_v57) = dstOf (m ((c.tc : Thread nD τ).loc main_arg1)) :=
  (W8_of_ne m ρ c main_v57 (by decide)).trans (b7_dst m ρ c)
theorem b8_norm : W8 m ρ c (Proc.devRef .tc main_v80) = norm (m ((c.tc : Thread nD τ).loc main_arg1)) :=
  (W8_of_ne m ρ c main_v80 (by decide)).trans (b7_norm m ρ c)
theorem b8_arg5 : W8 m ρ c (Proc.devRef .tc main_arg5) = m ((c.tc : Thread nD τ).loc main_arg5) :=
  (W8_of_ne m ρ c main_arg5 (by decide)).trans (b7_arg5 m ρ c)

/-! ## At the return -/

/-- The first layer's output buffer at the return. -/
theorem out_first : W9 m ρ c (Proc.devRef .tc main_v50) = first (m ((c.tc : Thread nD τ).loc main_arg0)) (m ((c.tc : Thread nD τ).loc main_arg1)) (m ((c.tc : Thread nD τ).loc main_arg2)) (m ((c.tc : Thread nD τ).loc main_arg3)) := by
  show StableHlo.after hostOps2 (W8 m ρ c) (Proc.devRef .tc main_v50) = _
  after_results_simp
  exact b8_first m ρ c

/-- The second layer's output buffer at the return. -/
theorem out_second : W9 m ρ c (Proc.devRef .tc main_v99)
    = second (first (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  show StableHlo.after hostOps2 (W8 m ρ c) (Proc.devRef .tc main_v99) = _
  after_results_simp
  rw [b8_prod m ρ c, b8_src m ρ c, b8_dst m ρ c, b8_norm m ρ c, b8_arg5 m ρ c]
  rfl

end Cert.KernelIdeal.Chain

end
-- ==== Proof.ReferenceLayers.lean ====
/-
  The reference's two results are the specification's two layers of its arguments.

  The reference computes the first layer on X · W1 followed by max(·, 0), then the second layer on that result's product
  with W2. Its run states each result as one composed term of the arguments; that term is, operation for operation, the
  specification's layer applied to the host's contraction of the two matrices. Nothing is computed here: each equation is
  two spellings of one term.
-/
import proofs.«117569_j36618891166257_2_alg».proof.Proof.ReferenceRunPatched
import proofs.«117569_j36618891166257_2_alg».proof.Proof.GcnLayers

set_option maxRecDepth 16384

noncomputable section

namespace Cert.ReferenceIdeal.Layers

open Idealize.ShloMosaic Idealize.ShloMosaic.TcCoe Idealize.SL.Sem
open Cert.KernelIdeal.Gcn

variable (m : (ℓ : Loc Cert.ReferenceIdeal.nD Cert.ReferenceIdeal.τ Cert.ReferenceIdeal.sig) → Buf (Elt Ideal) ℓ) (c : Dev Cert.ReferenceIdeal.nD)

/-- The first result: max(·, 0) of the first layer on the product of the node features by the first weight matrix. -/
theorem first_eq :
    Cert.ReferenceIdeal.ValueP.res_main_v47 (F := Ideal) m c = first (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := by
  unfold Cert.ReferenceIdeal.ValueP.res_main_v47
  rfl

/-- The second result: the second layer on the product of the first result by the second weight matrix. -/
theorem second_eq :
    Cert.ReferenceIdeal.ValueP.res_main_v94 (F := Ideal) m c
      = second (Cert.ReferenceIdeal.ValueP.res_main_v47 (F := Ideal) m c) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v94
  rfl

end Cert.ReferenceIdeal.Layers

end
-- ==== Proof.lean ====
/-
  A two-layer graph convolution: the kernel program against its reference, equal at the exact extended reals.

  Both programs compute, for node features X (50000 × 128), an edge list, weights W1 (128 × 128), W2 (128 × 64) and
  biases b1, b2:
        first  = max(layer(X · W1) + b1, 0),        second = layer(first · W2) + b2,
  where layer(H)(v, ·) = Σ_{messages j into v} H(src j, ·) · dinv(src j) · dinv(dst j) over the listed edges and one self
  loop per node, dinv = degree^(-1/2). They differ only in how the two matrix products are formed: the reference by one
  contraction, the kernel program by a call that forms ten blocks of 5000 rows each, with operands rounded to a
  narrower float format on the way in and the product's rows gathered through that format on the way out. On the exact
  extended reals a change of float format is the identity, a block's entry (p, q) is the same sum over the 128 contracted
  coordinates as the whole product's entry (5000·t + p, q), and the ten blocks tile the rows; everything else is the same
  operations on both sides. So both runs end with `second` and `first` of the arguments in their result buffers, and no law
  of arithmetic beyond reading the two sums is used: the inputs' finiteness is never needed.

  The frames of the two kernel programs are the frame certificates; the reference's is its run with the results dropped.
  The idealization rewrote nothing, so there is nothing to preserve.
-/
import proofs.«117569_j36618891166257_2_alg».proof.Defs
import proofs.«117569_j36618891166257_2_alg».proof.Proof.Gen.Kernel
import proofs.«117569_j36618891166257_2_alg».proof.Proof.Gen.Kernel.Skeleton
import proofs.«117569_j36618891166257_2_alg».proof.Proof.Gen.Kernel.Launch
import proofs.«117569_j36618891166257_2_alg».proof.Proof.Gen.Kernel.Points
import proofs.«117569_j36618891166257_2_alg».proof.Proof.Gen.Kernel.Frame
import proofs.«117569_j36618891166257_2_alg».proof.Proof.Gen.KernelIdeal
import proofs.«117569_j36618891166257_2_alg».proof.Proof.Gen.KernelIdeal.Skeleton
import proofs.«117569_j36618891166257_2_alg».proof.Proof.Gen.KernelIdeal.Launch
import proofs.«117569_j36618891166257_2_alg».proof.Proof.Gen.KernelIdeal.Points
import proofs.«117569_j36618891166257_2_alg».proof.Proof.Gen.KernelIdeal.Frame
import proofs.«117569_j36618891166257_2_alg».proof.Proof.Gen.ReferenceIdeal
import proofs.«117569_j36618891166257_2_alg».proof.Proof.Gen.Pre_finite_inputs
import proofs.«117569_j36618891166257_2_alg».proof.Proof.KernelRun
import proofs.«117569_j36618891166257_2_alg».proof.Proof.KernelChain
import proofs.«117569_j36618891166257_2_alg».proof.Proof.ReferenceRunPatched
import proofs.«117569_j36618891166257_2_alg».proof.Proof.ReferenceLayers
import Idealize.ShloMosaic.Adequacy
import Idealize.ShloMosaic.Init

noncomputable section

namespace Cert.Proof

open Idealize.ShloMosaic Idealize.ShloMosaic.TcCoe Idealize.SL.Sem
open Cert.KernelIdeal.Gcn

/-- The kernel program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- From memories that agree on the six arguments both idealized programs end with the second layer's output and the
    first layer's output of those arguments in their result buffers. -/
theorem algebraic : Cert.algebraic_KernelIdeal_ReferenceIdeal := by
  intro m ρ m' ρ' _ hagree
  refine ⟨fun c => second (first (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => first (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Chain.out_second m ρ c), (h c).2.1.trans (Cert.KernelIdeal.Chain.out_first m ρ c), (h c).2.2⟩)
      (Cert.KernelIdeal.Named.run (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [Cert.ReferenceIdeal.Layers.second_eq, Cert.ReferenceIdeal.Layers.first_eq,
        (hagree c).1, (hagree c).2.1, (hagree c).2.2.1, (hagree c).2.2.2.1, (hagree c).2.2.2.2.1, (hagree c).2.2.2.2.2]
    · rw [Cert.ReferenceIdeal.Layers.first_eq,
        (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
